-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x16384x1 : Shape := ⟨3, ![64, 16384, 1]⟩
abbrev S16384x64x3 : Shape := ⟨3, ![16384, 64, 3]⟩
abbrev S16384x64 : Shape := ⟨2, ![16384, 64]⟩
abbrev S_ : Shape := ⟨0, ![]⟩

class Facts : Prop where
  bcast_S_S64x16384x1 : S_.BroadcastsInDim S64x16384x1 (![] : Fin 0 → Fin S64x16384x1.rank)
  reducesTo_S64x16384x1_S_d0_1_2 : S64x16384x1.ReducesTo [0, 1, 2] S_
  h_S_ : 0 < S_.numel
  bcast_S_S16384x64x3 : S_.BroadcastsInDim S16384x64x3 (![] : Fin 0 → Fin S16384x64x3.rank)
  reducesTo_S16384x64x3_S_d0_1_2 : S16384x64x3.ReducesTo [0, 1, 2] S_
  bcast_S_S16384x64 : S_.BroadcastsInDim S16384x64 (![] : Fin 0 → Fin S16384x64.rank)
  reducesTo_S16384x64_S_d0_1 : S16384x64.ReducesTo [0, 1] S_

variable [Facts]

def fn {F : FTy → Type} [FloatOps F] (main_arg0 : FVec F S64x16384x1 .f32) (main_arg1 : FVec F S16384x64x3 .f32) (main_arg2 : FVec F S16384x64 .f32) : IVec S_ 1 :=
  let main_v0 : FVec F S64x16384x1 .f32 := Host.absf main_arg0
  let main_cst : FVec F S_ .f32 := constant S_ .f32 0x7F800000#32
  let main_v1 : FVec F S64x16384x1 .f32 := broadcastInDim S64x16384x1 ![] bcast_S_S64x16384x1 main_cst
  let main_v2 : IVec S64x16384x1 1 := cmpf .olt main_v0 main_v1
  let main_c : IVec S_ 1 := constantI S_ 1 1#1
  let main_v3 : IVec S_ 1 := (fun x v => Host.reduce IntOp.andi x v reducesTo_S64x16384x1_S_d0_1_2 h_S_) main_v2 main_c
  let main_v4 : FVec F S16384x64x3 .f32 := Host.absf main_arg1
  let main_cst_0 : FVec F S_ .f32 := constant S_ .f32 0x7F800000#32
  let main_v5 : FVec F S16384x64x3 .f32 := broadcastInDim S16384x64x3 ![] bcast_S_S16384x64x3 main_cst_0
  let main_v6 : IVec S16384x64x3 1 := cmpf .olt main_v4 main_v5
  let main_c_1 : IVec S_ 1 := constantI S_ 1 1#1
  let main_v7 : IVec S_ 1 := (fun x v => Host.reduce IntOp.andi x v reducesTo_S16384x64x3_S_d0_1_2 h_S_) main_v6 main_c_1
  let main_v8 : IVec S_ 1 := andi main_v3 main_v7
  let main_v9 : FVec F S16384x64 .f32 := Host.absf main_arg2
  let main_cst_2 : FVec F S_ .f32 := constant S_ .f32 0x7F800000#32
  let main_v10 : FVec F S16384x64 .f32 := broadcastInDim S16384x64 ![] bcast_S_S16384x64 main_cst_2
  let main_v11 : IVec S16384x64 1 := cmpf .olt main_v9 main_v10
  let main_c_3 : IVec S_ 1 := constantI S_ 1 1#1
  let main_v12 : IVec S_ 1 := (fun x v => Host.reduce IntOp.andi x v reducesTo_S16384x64_S_d0_1 h_S_) main_v11 main_c_3
  let main_v13 : IVec S_ 1 := andi main_v8 main_v12
  main_v13
-- ==== Kernel.lean ====
abbrev S64x16384x1 : Shape := ⟨3, ![64, 16384, 1]⟩
abbrev S16384x64x3 : Shape := ⟨3, ![16384, 64, 3]⟩
abbrev S16384x64 : Shape := ⟨2, ![16384, 64]⟩
abbrev S64x16384 : Shape := ⟨2, ![64, 16384]⟩
abbrev S64x1 : Shape := ⟨2, ![64, 1]⟩
abbrev S64x16383 : Shape := ⟨2, ![64, 16383]⟩
abbrev S3x16384x64 : Shape := ⟨3, ![3, 16384, 64]⟩
abbrev S64x16384x64 : Shape := ⟨3, ![64, 16384, 64]⟩
abbrev S64x256 : Shape := ⟨2, ![64, 256]⟩
abbrev S3x256x64 : Shape := ⟨3, ![3, 256, 64]⟩
abbrev S256x64 : Shape := ⟨2, ![256, 64]⟩
abbrev S64x256x64 : Shape := ⟨3, ![64, 256, 64]⟩
abbrev S1x256x64 : Shape := ⟨3, ![1, 256, 64]⟩
abbrev S64x256x1 : Shape := ⟨3, ![64, 256, 1]⟩

abbrev nBuf : Space → Nat
  | .hbm => 12
  | .vmem => 12
  | .smem => 0
  | _ => 0

abbrev bufTy : (tb : Table) → Fin (tcTables nBuf tb) → BufTy
  | .hbm, ⟨0, _⟩ => ⟨S64x16384x1, .f32⟩
  | .hbm, ⟨1, _⟩ => ⟨S16384x64x3, .f32⟩
  | .hbm, ⟨2, _⟩ => ⟨S16384x64, .f32⟩
  | .hbm, ⟨3, _⟩ => ⟨S64x16384, .f32⟩
  | .hbm, ⟨4, _⟩ => ⟨S64x1, .f32⟩
  | .hbm, ⟨5, _⟩ => ⟨S64x16383, .f32⟩
  | .hbm, ⟨6, _⟩ => ⟨S64x16384, .f32⟩
  | .hbm, ⟨7, _⟩ => ⟨S64x16383, .f32⟩
  | .hbm, ⟨8, _⟩ => ⟨S64x1, .f32⟩
  | .hbm, ⟨9, _⟩ => ⟨S64x16384, .f32⟩
  | .hbm, ⟨10, _⟩ => ⟨S3x16384x64, .f32⟩
  | .hbm, ⟨11, _⟩ => ⟨S64x16384x64, .f32⟩
  | .local _ .vmem, ⟨0, _⟩ => ⟨S64x256, .f32⟩
  | .local _ .vmem, ⟨1, _⟩ => ⟨S64x256, .f32⟩
  | .local _ .vmem, ⟨2, _⟩ => ⟨S64x256, .f32⟩
  | .local _ .vmem, ⟨3, _⟩ => ⟨S64x256, .f32⟩
  | .local _ .vmem, ⟨4, _⟩ => ⟨S64x256, .f32⟩
  | .local _ .vmem, ⟨5, _⟩ => ⟨S64x256, .f32⟩
  | .local _ .vmem, ⟨6, _⟩ => ⟨S3x256x64, .f32⟩
  | .local _ .vmem, ⟨7, _⟩ => ⟨S3x256x64, .f32⟩
  | .local _ .vmem, ⟨8, _⟩ => ⟨S256x64, .f32⟩
  | .local _ .vmem, ⟨9, _⟩ => ⟨S256x64, .f32⟩
  | .local _ .vmem, ⟨10, _⟩ => ⟨S64x256x64, .f32⟩
  | .local _ .vmem, ⟨11, _⟩ => ⟨S64x256x64, .f32⟩
  | _, _ => ⟨S64x16384x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_v1 : Ref sig .tc := ⟨.hbm, 6, rfl⟩
abbrev main_call1_v0 : Ref sig .tc := ⟨.hbm, 7, rfl⟩
abbrev main_call1_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64x16384x1_S64x16384 : S64x16384x1.ShapeCasts S64x16384
  slices_S64x16384_S64x1_0_16383 : S64x16384.Slices ![0, 16383] S64x1
  slices_S64x16384_S64x16383_0_0 : S64x16384.Slices ![0, 0] S64x16383
  concatenates_S64x1_S64x16383_S64x16384_d1 : Shape.Concatenates [S64x1, S64x16383] S64x16384 1
  slices_S64x16384_S64x16383_0_1 : S64x16384.Slices ![0, 1] S64x16383
  slices_S64x16384_S64x1_0_0 : S64x16384.Slices ![0, 0] S64x1
  concatenates_S64x16383_S64x1_S64x16384_d1 : Shape.Concatenates [S64x16383, S64x1] S64x16384 1
  transposes_S16384x64x3_S3x16384x64_2_0_1 : S16384x64x3.Transposes [2, 0, 1] S3x16384x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S256x64_S256x64_0_0 : ∀ a, (![0, 0] : Fin 2 → Nat) a + S256x64.size a ≤ S256x64.size a
  h_S256x64 : 0 < S256x64.numel
  inb_S3x256x64_S1x256x64_0_0_0 : ∀ a, (![0, 0, 0] : Fin 3 → Nat) a + S1x256x64.size a ≤ S3x256x64.size a
  h_S1x256x64 : 0 < S1x256x64.numel
  shapeCasts_S1x256x64_S256x64 : S1x256x64.ShapeCasts S256x64
  inb_S3x256x64_S1x256x64_1_0_0 : ∀ a, (![1, 0, 0] : Fin 3 → Nat) a + S1x256x64.size a ≤ S3x256x64.size a
  inb_S3x256x64_S1x256x64_2_0_0 : ∀ a, (![2, 0, 0] : Fin 3 → Nat) a + S1x256x64.size a ≤ S3x256x64.size a
  shapeCasts_S64x256_S64x256x1 : S64x256.ShapeCasts S64x256x1
  shapeCasts_S256x64_S1x256x64 : S256x64.ShapeCasts S1x256x64
  broadcasts_S64x256x1_S64x256x64 : S64x256x1.Broadcasts S64x256x64
  broadcasts_S1x256x64_S64x256x64 : S1x256x64.Broadcasts S64x256x64
  inb_S64x256x64_S64x256x64_0_0_0 : ∀ a, (![0, 0, 0] : Fin 3 → Nat) a + S64x256x64.size a ≤ S64x256x64.size a
  h_S64x256x64 : 0 < S64x256x64.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x256.size a ≤ S64x16384.size a
  hwx0_0 : ∀ i : grid0.Coords, EltTy.bits .f32 = 32 ∨ (Rect.block (s := S64x16384) S64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x16384.size a
  hwx0_1 : ∀ i : grid0.Coords, EltTy.bits .f32 = 32 ∨ (Rect.block (s := S64x16384) S64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x16384.size a
  hwx0_2 : ∀ i : grid0.Coords, EltTy.bits .f32 = 32 ∨ (Rect.block (s := S64x16384) S64x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3x256x64.size a ≤ S3x16384x64.size a
  hwx0_3 : ∀ i : grid0.Coords, EltTy.bits .f32 = 32 ∨ (Rect.block (s := S3x16384x64) S3x256x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S16384x64.size a
  hwx0_4 : ∀ i : grid0.Coords, EltTy.bits .f32 = 32 ∨ (Rect.block (s := S16384x64) S256x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x256x64.size a ≤ S64x16384x64.size a
  hwx0_5 : ∀ i : grid0.Coords, EltTy.bits .f32 = 32 ∨ (Rect.block (s := S64x16384x64) S64x256x64.size (cc0_transform_5 i) (hinb0_5 i)).WholeWords (EltTy.packing .f32)

variable [Facts₀]

abbrev win0_0 : Pipeline.Window sig grid0 :=
  Pipeline.Window.ofSpec (Memref.whole main_v1) S64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S3x256x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S256x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S64x256x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x16384x1 : Shape := ⟨3, ![64, 16384, 1]⟩
abbrev S16384x64x3 : Shape := ⟨3, ![16384, 64, 3]⟩
abbrev S16384x64 : Shape := ⟨2, ![16384, 64]⟩
abbrev S64x16384 : Shape := ⟨2, ![64, 16384]⟩
abbrev S64x1 : Shape := ⟨2, ![64, 1]⟩
abbrev S64x16383 : Shape := ⟨2, ![64, 16383]⟩
abbrev S16384x64x1 : Shape := ⟨3, ![16384, 64, 1]⟩
abbrev S1x16384x64 : Shape := ⟨3, ![1, 16384, 64]⟩
abbrev S64x16384x64 : Shape := ⟨3, ![64, 16384, 64]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S64x16384x1, .f32⟩
  | .hbm, ⟨1, _⟩ => ⟨S16384x64x3, .f32⟩
  | .hbm, ⟨2, _⟩ => ⟨S16384x64, .f32⟩
  | .hbm, ⟨3, _⟩ => ⟨S64x16384, .f32⟩
  | .hbm, ⟨4, _⟩ => ⟨S64x1, .f32⟩
  | .hbm, ⟨5, _⟩ => ⟨S64x16383, .f32⟩
  | .hbm, ⟨6, _⟩ => ⟨S64x16384, .f32⟩
  | .hbm, ⟨7, _⟩ => ⟨S64x16383, .f32⟩
  | .hbm, ⟨8, _⟩ => ⟨S64x1, .f32⟩
  | .hbm, ⟨9, _⟩ => ⟨S64x16384, .f32⟩
  | .hbm, ⟨10, _⟩ => ⟨S64x16384x1, .f32⟩
  | .hbm, ⟨11, _⟩ => ⟨S16384x64x1, .f32⟩
  | .hbm, ⟨12, _⟩ => ⟨S16384x64, .f32⟩
  | .hbm, ⟨13, _⟩ => ⟨S1x16384x64, .f32⟩
  | .hbm, ⟨14, _⟩ => ⟨S64x16384x64, .f32⟩
  | .hbm, ⟨15, _⟩ => ⟨S64x16384x64, .f32⟩
  | .hbm, ⟨16, _⟩ => ⟨S64x16384x64, .f32⟩
  | .hbm, ⟨17, _⟩ => ⟨S64x16384x1, .f32⟩
  | .hbm, ⟨18, _⟩ => ⟨S16384x64x1, .f32⟩
  | .hbm, ⟨19, _⟩ => ⟨S16384x64, .f32⟩
  | .hbm, ⟨20, _⟩ => ⟨S1x16384x64, .f32⟩
  | .hbm, ⟨21, _⟩ => ⟨S64x16384x64, .f32⟩
  | .hbm, ⟨22, _⟩ => ⟨S64x16384x64, .f32⟩
  | .hbm, ⟨23, _⟩ => ⟨S64x16384x64, .f32⟩
  | .hbm, ⟨24, _⟩ => ⟨S64x16384x64, .f32⟩
  | .hbm, ⟨25, _⟩ => ⟨S64x16384x1, .f32⟩
  | .hbm, ⟨26, _⟩ => ⟨S16384x64x1, .f32⟩
  | .hbm, ⟨27, _⟩ => ⟨S16384x64, .f32⟩
  | .hbm, ⟨28, _⟩ => ⟨S1x16384x64, .f32⟩
  | .hbm, ⟨29, _⟩ => ⟨S64x16384x64, .f32⟩
  | .hbm, ⟨30, _⟩ => ⟨S64x16384x64, .f32⟩
  | .hbm, ⟨31, _⟩ => ⟨S64x16384x64, .f32⟩
  | .hbm, ⟨32, _⟩ => ⟨S64x16384x64, .f32⟩
  | .hbm, ⟨33, _⟩ => ⟨S1x16384x64, .f32⟩
  | .hbm, ⟨34, _⟩ => ⟨S64x16384x64, .f32⟩
  | .hbm, ⟨35, _⟩ => ⟨S64x16384x64, .f32⟩
  | .hbm, ⟨36, _⟩ => ⟨S_, .f32⟩
  | .hbm, ⟨37, _⟩ => ⟨S64x16384x64, .f32⟩
  | .hbm, ⟨38, _⟩ => ⟨S64x16384x64, .f32⟩
  | .hbm, ⟨39, _⟩ => ⟨S64x16384x64, .f32⟩
  | .hbm, ⟨40, _⟩ => ⟨S_, .f32⟩
  | .hbm, ⟨41, _⟩ => ⟨S64x16384x64, .f32⟩
  | .hbm, ⟨42, _⟩ => ⟨S64x16384x64, .f32⟩
  | _, _ => ⟨S64x16384x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_v1 : Ref sig .tc := ⟨.hbm, 6, rfl⟩
abbrev main_call1_v0 : Ref sig .tc := ⟨.hbm, 7, rfl⟩
abbrev main_call1_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_0 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]

class Facts₀ : Prop where
  shapeCasts_S64x16384x1_S64x16384 : S64x16384x1.ShapeCasts S64x16384
  slices_S64x16384_S64x1_0_16383 : S64x16384.Slices ![0, 16383] S64x1
  slices_S64x16384_S64x16383_0_0 : S64x16384.Slices ![0, 0] S64x16383
  concatenates_S64x1_S64x16383_S64x16384_d1 : Shape.Concatenates [S64x1, S64x16383] S64x16384 1
  slices_S64x16384_S64x16383_0_1 : S64x16384.Slices ![0, 1] S64x16383
  slices_S64x16384_S64x1_0_0 : S64x16384.Slices ![0, 0] S64x1
  concatenates_S64x16383_S64x1_S64x16384_d1 : Shape.Concatenates [S64x16383, S64x1] S64x16384 1
  bcast_S64x16384_S64x16384x1_0_1 : S64x16384.BroadcastsInDim S64x16384x1 (![0, 1] : Fin 2 → Fin S64x16384x1.rank)
  slices_S16384x64x3_S16384x64x1_0_0_0 : S16384x64x3.Slices ![0, 0, 0] S16384x64x1
  shapeCasts_S16384x64x1_S16384x64 : S16384x64x1.ShapeCasts S16384x64
  bcast_S16384x64_S1x16384x64_1_2 : S16384x64.BroadcastsInDim S1x16384x64 (![1, 2] : Fin 2 → Fin S1x16384x64.rank)
  bcast_S64x16384x1_S64x16384x64_0_1_2 : S64x16384x1.BroadcastsInDim S64x16384x64 (![0, 1, 2] : Fin 3 → Fin S64x16384x64.rank)
  bcast_S1x16384x64_S64x16384x64_0_1_2 : S1x16384x64.BroadcastsInDim S64x16384x64 (![0, 1, 2] : Fin 3 → Fin S64x16384x64.rank)
  slices_S16384x64x3_S16384x64x1_0_0_1 : S16384x64x3.Slices ![0, 0, 1] S16384x64x1
  slices_S16384x64x3_S16384x64x1_0_0_2 : S16384x64x3.Slices ![0, 0, 2] S16384x64x1
  bcast_S_S64x16384x64 : S_.BroadcastsInDim S64x16384x64 (![] : Fin 0 → Fin S64x16384x64.rank)

variable [Facts₀]

class Facts : Prop extends Facts₀ where

variable [Facts]
-- ==== Proof.Spec.lean ====
/-
  The function both programs compute, on the extended reals.

  For a batch row `b`, a cell `n` and a class `c`, the result element is
      1.7159 · tanh ((xl[b,n] · W[n,c,0] + x[b,n] · W[n,c,1] + xr[b,n] · W[n,c,2] + bias[n,c]) · (2/3)),
  where `x` is the input with its unit axis dropped and `xl`, `xr` are its two cyclic shifts along the cell
  axis (the left and the right neighbour of every cell). The two float literals are kept as their words: both
  programs carry the same two words, so their values never matter. The sum is associated to the left, as both
  programs associate it; no law of the extended reals is used anywhere, so no input needs to be finite.

  `cell` is one element from the seven numbers it depends on, `elem` that element from the arrays and its three
  coordinates; `G` is the whole result array from the three
  [64,16384] arrays, the weights as given ([16384,64,3], the tap last) and the bias; `Gt` is the same with the
  weights tap-first ([3,16384,64]), the layout the kernel is handed.
-/
import Idealize.ShloMosaic.PureOps.Ideal
import Idealize.ShloMosaic.Lib.ValueIdx

noncomputable section

namespace Cert.Neighbor

open Idealize.ShloMosaic Idealize.ShloMosaic.ValueIdx

/-- One result element: the three neighbour values `l`, `x`, `r` against the three taps `w0`, `w1`, `w2`, plus the
    bias `b`, scaled, through `tanh`, scaled again. -/
def cell (l x r w0 w1 w2 b : EReal) : EReal :=
  Ideal.ofBits .f32 0x3FDBA29C#32 * Ideal.tanh ((l * w0 + x * w1 + r * w2 + b) * Ideal.ofBits .f32 0x3F2AAAAB#32)

/-- Element `(b, n, c)` of the result: the three shifted inputs at `(b, n)`, the weights at `(n, c, 0)`, `(n, c, 1)`,
    `(n, c, 2)` and the bias at `(n, c)`. -/
def elem (L X R : (⟨2, ![64, 16384]⟩ : Shape).Idx → EReal) (W : (⟨3, ![16384, 64, 3]⟩ : Shape).Idx → EReal)
    (B : (⟨2, ![16384, 64]⟩ : Shape).Idx → EReal) (b : Fin 64) (n : Fin 16384) (c : Fin 64) : EReal :=
  cell (L (ix2 b n)) (X (ix2 b n)) (R (ix2 b n))
    (W (ix3 n c (0 : Fin 3))) (W (ix3 n c (1 : Fin 3))) (W (ix3 n c (2 : Fin 3))) (B (ix2 n c))

/-- The same element from weights stored tap-first: they are read at `(0, n, c)`, `(1, n, c)`, `(2, n, c)`. -/
def elemT (L X R : (⟨2, ![64, 16384]⟩ : Shape).Idx → EReal) (Wt : (⟨3, ![3, 16384, 64]⟩ : Shape).Idx → EReal)
    (B : (⟨2, ![16384, 64]⟩ : Shape).Idx → EReal) (b : Fin 64) (n : Fin 16384) (c : Fin 64) : EReal :=
  cell (L (ix2 b n)) (X (ix2 b n)) (R (ix2 b n))
    (Wt (ix3 (0 : Fin 3) n c)) (Wt (ix3 (1 : Fin 3) n c)) (Wt (ix3 (2 : Fin 3) n c)) (B (ix2 n c))

/-- The result array, index by index. -/
def G (L X R : (⟨2, ![64, 16384]⟩ : Shape).Idx → EReal) (W : (⟨3, ![16384, 64, 3]⟩ : Shape).Idx → EReal)
    (B : (⟨2, ![16384, 64]⟩ : Shape).Idx → EReal) : (⟨3, ![64, 16384, 64]⟩ : Shape).Idx → EReal :=
  fun i => elem L X R W B (i 0) (i 1) (i 2)

/-- The same array from tap-first weights. -/
def Gt (L X R : (⟨2, ![64, 16384]⟩ : Shape).Idx → EReal) (Wt : (⟨3, ![3, 16384, 64]⟩ : Shape).Idx → EReal)
    (B : (⟨2, ![16384, 64]⟩ : Shape).Idx → EReal) : (⟨3, ![64, 16384, 64]⟩ : Shape).Idx → EReal :=
  fun i => elemT L X R Wt B (i 0) (i 1) (i 2)

/-- `Gt` at an index whose coordinates are known. -/
theorem Gt_apply (L X R : (⟨2, ![64, 16384]⟩ : Shape).Idx → EReal) (Wt : (⟨3, ![3, 16384, 64]⟩ : Shape).Idx → EReal)
    (B : (⟨2, ![16384, 64]⟩ : Shape).Idx → EReal) (i : (⟨3, ![64, 16384, 64]⟩ : Shape).Idx)
    (b : Fin 64) (n : Fin 16384) (c : Fin 64) (hb : (i 0).val = b.val) (hn : (i 1).val = n.val) (hc : (i 2).val = c.val) :
    Gt L X R Wt B i = elemT L X R Wt B b n c := by
  show elemT L X R Wt B (i 0) (i 1) (i 2) = elemT L X R Wt B b n c
  exact congr (congr (congrArg (elemT L X R Wt B) (Fin.ext hb)) (Fin.ext hn)) (Fin.ext hc)

/-- Tap-first weights that are the transpose of tap-last ones give the same element … -/
theorem elemT_eq_elem (L X R : (⟨2, ![64, 16384]⟩ : Shape).Idx → EReal) (W : (⟨3, ![16384, 64, 3]⟩ : Shape).Idx → EReal)
    (Wt : (⟨3, ![3, 16384, 64]⟩ : Shape).Idx → EReal) (B : (⟨2, ![16384, 64]⟩ : Shape).Idx → EReal)
    (h : ∀ (k : Fin 3) (n : Fin 16384) (c : Fin 64), Wt (ix3 k n c) = W (ix3 n c k))
    (b : Fin 64) (n : Fin 16384) (c : Fin 64) : elemT L X R Wt B b n c = elem L X R W B b n c := by
  unfold elemT elem
  rw [h, h, h]

/-- … and so the same array. -/
theorem Gt_eq_G (L X R : (⟨2, ![64, 16384]⟩ : Shape).Idx → EReal) (W : (⟨3, ![16384, 64, 3]⟩ : Shape).Idx → EReal)
    (Wt : (⟨3, ![3, 16384, 64]⟩ : Shape).Idx → EReal) (B : (⟨2, ![16384, 64]⟩ : Shape).Idx → EReal)
    (h : ∀ (k : Fin 3) (n : Fin 16384) (c : Fin 64), Wt (ix3 k n c) = W (ix3 n c k)) :
    Gt L X R Wt B = G L X R W B :=
  funext fun i => elemT_eq_elem L X R W Wt B h (i 0) (i 1) (i 2)

end Cert.Neighbor

end
-- ==== Proof.RefRead.lean ====
/-
  The reference, read at an index, is the common function `G`.

  Its result is built from whole-array operations: the input with its unit axis dropped, the two cyclic shifts of
  that array, each a stretched copy over the class axis; the three tap planes of the weights, each a slice with its
  unit axis dropped, stretched over the batch axis; the bias stretched over the batch axis; then products, sums, the
  scale, `tanh`, the scale. Read at `(b, n, c)`, every stretch and slice moves the index and nothing else, so the
  element is `cell` of the shifted inputs at `(b, n)`, the weights at `(n, c, 0 … 2)` and the bias at `(n, c)`.
  The two shifted arrays are never opened: the kernel's program builds them by the same operations.
-/
import proofs.«124618_j59519656788346_2_alg».proof.Proof.Gen.ReferenceIdeal.Read
import proofs.«124618_j59519656788346_2_alg».proof.Proof.Spec
import Idealize.ShloMosaic.Lib.ValueIdx

noncomputable section

namespace Cert.Neighbor.Ref

open Cert.ReferenceIdeal Cert.ReferenceIdeal.Read Idealize.ShloMosaic Idealize.ShloMosaic.ValueIdx

/-- Where a result index reads a [64,16384] array that was given a unit class axis and stretched over the classes:
    at its first two coordinates. -/
theorem rows_idx (i : S64x16384x64.Idx) (b : Fin 64) (n : Fin 16384) (hb : (i 0).val = b.val) (hn : (i 1).val = n.val) :
    idx_main_v3 (idx_main_v7 i) = ix2 b n := by
  funext a; apply Fin.ext
  match a with
  | ⟨0, _⟩ => exact hb
  | ⟨1, _⟩ => exact hn

/-- Where a result index reads the bias, stretched over the batch axis: at its last two coordinates. -/
theorem bias_idx (i : S64x16384x64.Idx) (n : Fin 16384) (c : Fin 64) (hn : (i 1).val = n.val) (hc : (i 2).val = c.val) :
    idx_main_v26 (idx_main_v27 i) = ix2 n c := by
  funext a; apply Fin.ext
  match a with
  | ⟨0, _⟩ => exact hn
  | ⟨1, _⟩ => exact hc

/-- Where a result index reads the weights through tap plane 0 (slice, drop the unit axis, stretch over the batch). -/
theorem tap0_idx (i : S64x16384x64.Idx) (n : Fin 16384) (c : Fin 64) (hn : (i 1).val = n.val) (hc : (i 2).val = c.val) :
    idx_main_v4 (idx_main_v5 (idx_main_v6 (idx_main_v8 i))) = ix3 n c (0 : Fin 3) := by
  have h1 := n.isLt; have h2 := c.isLt
  funext a; apply Fin.ext
  match a with
  | ⟨0, _⟩ => show ((i 1).val * 64 + (i 2).val) / 64 = n.val; omega
  | ⟨1, _⟩ => show ((i 1).val * 64 + (i 2).val) / 1 % 64 = c.val; omega
  | ⟨2, _⟩ => rfl

/-- … through tap plane 1 … -/
theorem tap1_idx (i : S64x16384x64.Idx) (n : Fin 16384) (c : Fin 64) (hn : (i 1).val = n.val) (hc : (i 2).val = c.val) :
    idx_main_v11 (idx_main_v12 (idx_main_v13 (idx_main_v15 i))) = ix3 n c (1 : Fin 3) := by
  have h1 := n.isLt; have h2 := c.isLt
  funext a; apply Fin.ext
  match a with
  | ⟨0, _⟩ => show ((i 1).val * 64 + (i 2).val) / 64 = n.val; omega
  | ⟨1, _⟩ => show ((i 1).val * 64 + (i 2).val) / 1 % 64 = c.val; omega
  | ⟨2, _⟩ => rfl

/-- … and through tap plane 2. -/
theorem tap2_idx (i : S64x16384x64.Idx) (n : Fin 16384) (c : Fin 64) (hn : (i 1).val = n.val) (hc : (i 2).val = c.val) :
    idx_main_v19 (idx_main_v20 (idx_main_v21 (idx_main_v23 i))) = ix3 n c (2 : Fin 3) := by
  have h1 := n.isLt; have h2 := c.isLt
  funext a; apply Fin.ext
  match a with
  | ⟨0, _⟩ => show ((i 1).val * 64 + (i 2).val) / 64 = n.val; omega
  | ⟨1, _⟩ => show ((i 1).val * 64 + (i 2).val) / 1 % 64 = c.val; omega
  | ⟨2, _⟩ => rfl

/-- The centre input and the right neighbour are stretched by the same two steps as the left neighbour. -/
theorem rows_idx_c (i : S64x16384x64.Idx) (b : Fin 64) (n : Fin 16384) (hb : (i 0).val = b.val) (hn : (i 1).val = n.val) :
    idx_main_v10 (idx_main_v14 i) = ix2 b n := by
  funext a; apply Fin.ext
  match a with
  | ⟨0, _⟩ => exact hb
  | ⟨1, _⟩ => exact hn

theorem rows_idx_r (i : S64x16384x64.Idx) (b : Fin 64) (n : Fin 16384) (hb : (i 0).val = b.val) (hn : (i 1).val = n.val) :
    idx_main_v18 (idx_main_v22 i) = ix2 b n := by
  funext a; apply Fin.ext
  match a with
  | ⟨0, _⟩ => exact hb
  | ⟨1, _⟩ => exact hn

/-- The reference's result element at `(b, n, c)`, over the two shifted arrays and the squeezed input as they stand. -/
theorem ref_elem (x0 : (⟨S64x16384x1, .f32⟩ : BufTy).Contents (Elt Ideal)) (x1 : (⟨S16384x64x3, .f32⟩ : BufTy).Contents (Elt Ideal))
    (x2 : (⟨S16384x64, .f32⟩ : BufTy).Contents (Elt Ideal)) (i : S64x16384x64.Idx) (b : Fin 64) (n : Fin 16384) (c : Fin 64)
    (hb : (i 0).val = b.val) (hn : (i 1).val = n.val) (hc : (i 2).val = c.val) :
    val_main_v33 (F := Ideal) x0 x1 x2 i
      = elem (val_main_v1 (F := Ideal) x0) (val_main_v0 (F := Ideal) x0) (val_main_v2 (F := Ideal) x0) x1 x2 b n c := by
  rw [val_main_v33_apply, val_main_v32_apply, val_main_cst_0_apply, val_main_v31_apply, val_main_v30_apply,
    val_main_v29_apply, val_main_cst_apply, val_main_v28_apply, val_main_v27_apply, val_main_v26_apply,
    val_main_v25_apply, val_main_v24_apply, val_main_v23_apply, val_main_v22_apply, val_main_v21_apply,
    val_main_v20_apply, val_main_v19_apply, val_main_v18_apply, val_main_v17_apply, val_main_v16_apply,
    val_main_v15_apply, val_main_v14_apply, val_main_v13_apply, val_main_v12_apply, val_main_v11_apply,
    val_main_v10_apply, val_main_v9_apply, val_main_v8_apply, val_main_v7_apply, val_main_v6_apply,
    val_main_v5_apply, val_main_v4_apply, val_main_v3_apply]
  rw [rows_idx i b n hb hn, rows_idx_c i b n hb hn, rows_idx_r i b n hb hn, tap0_idx i n c hn hc, tap1_idx i n c hn hc,
    tap2_idx i n c hn hc, bias_idx i n c hn hc]
  rfl

/-- The reference's result array is `G` of the shifted inputs, the weights and the bias. -/
theorem ref_eq (x0 : (⟨S64x16384x1, .f32⟩ : BufTy).Contents (Elt Ideal)) (x1 : (⟨S16384x64x3, .f32⟩ : BufTy).Contents (Elt Ideal))
    (x2 : (⟨S16384x64, .f32⟩ : BufTy).Contents (Elt Ideal)) :
    val_main_v33 (F := Ideal) x0 x1 x2
      = G (val_main_v1 (F := Ideal) x0) (val_main_v0 (F := Ideal) x0) (val_main_v2 (F := Ideal) x0) x1 x2 :=
  funext fun i => ref_elem x0 x1 x2 i (i 0) (i 1) (i 2) rfl rfl rfl

end Cert.Neighbor.Ref

end
-- ==== Proof.KernelBlocks.lean ====
/-
  The kernel's result array, block by block, is the common function over the arrays the launch finds.

  The grid has 64 points; point `t` is handed columns `256·t … 256·t + 255` of the three [64,16384] arrays (all 64
  rows), rows `256·t …` of the tap-first weights (all three planes, all 64 classes) and of the bias, and writes
  rows `256·t …` of the result (all 64 batch rows, all 64 classes). Inside a block the body's result at `(b, r, c)`
  is `cell` of the three input blocks at `(b, r)`, the three weight planes at `(r, c)` and the bias block at `(r, c)`
  (the generated value module gives the block as that index-by-index function). A block index `r` is array index
  `256·t + r`, so the block point `t` writes back is block `t` of `Gt` of the whole arrays; the 64 blocks tile the
  result (array row `n` is in block `n / 256`), so the result array is `Gt` of them.
-/
import proofs.«124618_j59519656788346_2_alg».proof.Proof.Gen.KernelIdeal.Value
import proofs.«124618_j59519656788346_2_alg».proof.Proof.Spec
import Idealize.ShloMosaic.Lib.Pipeline.Value
import Idealize.ShloMosaic.Lib.ValueIdx

noncomputable section

namespace Cert.Neighbor.Kern

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-! ## Inside one block -/

/-- What the body leaves in the output block at `(b, r, c)`, from the five input blocks as plain arrays. -/
theorem block_elem (x0 x1 x2 : Vec Ideal S64x256 .f32) (x3 : Vec Ideal S3x256x64 .f32) (x4 : Vec Ideal S256x64 .f32)
    (j : S64x256x64.Idx) (b : Fin 64) (r : Fin 256) (cc : Fin 64)
    (hb : (j 0).val = b.val) (hr : (j 1).val = r.val) (hc : (j 2).val = cc.val) :
    out0_5 x0 x1 x2 x3 x4 j
      = cell (x0 (ix2 b r)) (x1 (ix2 b r)) (x2 (ix2 b r))
          (x3 (ix3 (0 : Fin 3) r cc)) (x3 (ix3 (1 : Fin 3) r cc)) (x3 (ix3 (2 : Fin 3) r cc)) (x4 (ix2 r cc)) := by
  unfold out0_5
  refine (Cert.KernelIdeal.Value.canon5_eq _ _ _ _ _ _ _ j).trans ?_
  show cell (x0 (r0_0.idx (Cert.KernelIdeal.Value.ix5_0 j))) (x1 (r0_0.idx (Cert.KernelIdeal.Value.ix5_2 j)))
      (x2 (r0_0.idx (Cert.KernelIdeal.Value.ix5_4 j))) (x3 (r0_2.idx (Cert.KernelIdeal.Value.ix5_1 j)))
      (x3 (r0_3.idx (Cert.KernelIdeal.Value.ix5_3 j))) (x3 (r0_4.idx (Cert.KernelIdeal.Value.ix5_5 j)))
      (x4 (r0_1.idx (Cert.KernelIdeal.Value.ix5_6 j))) = _
  -- the three [64,256] blocks are read at one and the same index
  have e0 : r0_0.idx (Cert.KernelIdeal.Value.ix5_0 j) = ix2 b r := by
    funext a; apply Fin.ext
    match a with
    | ⟨0, _⟩ => show 0 + 1 * (j 0).val = b.val; omega
    | ⟨1, _⟩ => show 0 + 1 * (j 1).val = r.val; omega
  have e1 : r0_2.idx (Cert.KernelIdeal.Value.ix5_1 j) = ix3 (0 : Fin 3) r cc := by
    funext a; apply Fin.ext
    match a with
    | ⟨0, _⟩ => rfl
    | ⟨1, _⟩ => show 0 + 1 * (j 1).val = r.val; omega
    | ⟨2, _⟩ => show 0 + 1 * (j 2).val = cc.val; omega
  have e3 : r0_3.idx (Cert.KernelIdeal.Value.ix5_3 j) = ix3 (1 : Fin 3) r cc := by
    funext a; apply Fin.ext
    match a with
    | ⟨0, _⟩ => rfl
    | ⟨1, _⟩ => show 0 + 1 * (j 1).val = r.val; omega
    | ⟨2, _⟩ => show 0 + 1 * (j 2).val = cc.val; omega
  have e5 : r0_4.idx (Cert.KernelIdeal.Value.ix5_5 j) = ix3 (2 : Fin 3) r cc := by
    funext a; apply Fin.ext
    match a with
    | ⟨0, _⟩ => rfl
    | ⟨1, _⟩ => show 0 + 1 * (j 1).val = r.val; omega
    | ⟨2, _⟩ => show 0 + 1 * (j 2).val = cc.val; omega
  have e6 : r0_1.idx (Cert.KernelIdeal.Value.ix5_6 j) = ix2 r cc := by
    funext a; apply Fin.ext
    match a with
    | ⟨0, _⟩ => show 0 + 1 * (j 1).val = r.val; omega
    | ⟨1, _⟩ => show 0 + 1 * (j 2).val = cc.val; omega
  rw [e0, e1, e3, e5, e6]

/-! ## A block index in the arrays -/

/-- The windows' block indices at point `t`, decided over the 64 points: the three [64,16384] arrays and the result move
    along their cell axis, the weights along their middle axis, the bias along its first. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 3) = 0 ∧ win0_3.index t (1 : Fin 3) = t.val ∧ win0_3.index t (2 : Fin 3) = 0
    ∧ win0_4.index t (0 : Fin 2) = t.val ∧ win0_4.index t (1 : Fin 2) = 0
    ∧ win0_5.index t (0 : Fin 3) = 0 ∧ win0_5.index t (1 : Fin 3) = t.val ∧ win0_5.index t (2 : Fin 3) = 0 :=
  (by decide +kernel : ∀ t : Fin grid0.N, _)

/-- Column `r` of point `t`'s block of the left-neighbour array is its column `256·t + r`. -/
theorem blk_left (c : Dev nD) (t : Fin cfg0.N) (y : S64x256.Idx) (k : S64x16384.Idx)
    (h0 : (k 0).val = (y 0).val) (h1 : (k 1).val = t.val * 256 + (y 1).val) :
    (iblk m c 0 t : Vec Ideal S64x256 .f32) y = (V m c main_v1 : S64x16384.Idx → EReal) k := by
  obtain ⟨e0, e1, -⟩ := idx_facts t
  unfold iblk
  rw [View.read_apply]
  show V m c main_v1 _ = V m c main_v1 _
  congr 1
  funext a; apply Fin.ext
  match a with
  | ⟨0, _⟩ => show win0_0.index t (0 : Fin 2) * 64 + 1 * (y 0).val = (k 0).val; rw [e0, h0]; omega
  | ⟨1, _⟩ => show win0_0.index t (1 : Fin 2) * 256 + 1 * (y 1).val = (k 1).val; rw [e1, h1]; omega

/-- The same for the centre array … -/
theorem blk_centre (c : Dev nD) (t : Fin cfg0.N) (y : S64x256.Idx) (k : S64x16384.Idx)
    (h0 : (k 0).val = (y 0).val) (h1 : (k 1).val = t.val * 256 + (y 1).val) :
    (iblk m c 1 t : Vec Ideal S64x256 .f32) y = (V m c main_v0 : S64x16384.Idx → EReal) k := by
  obtain ⟨-, -, e0, e1, -⟩ := idx_facts t
  unfold iblk
  rw [View.read_apply]
  show V m c main_v0 _ = V m c main_v0 _
  congr 1
  funext a; apply Fin.ext
  match a with
  | ⟨0, _⟩ => show win0_1.index t (0 : Fin 2) * 64 + 1 * (y 0).val = (k 0).val; rw [e0, h0]; omega
  | ⟨1, _⟩ => show win0_1.index t (1 : Fin 2) * 256 + 1 * (y 1).val = (k 1).val; rw [e1, h1]; omega

/-- … and for the right-neighbour array. -/
theorem blk_right (c : Dev nD) (t : Fin cfg0.N) (y : S64x256.Idx) (k : S64x16384.Idx)
    (h0 : (k 0).val = (y 0).val) (h1 : (k 1).val = t.val * 256 + (y 1).val) :
    (iblk m c 2 t : Vec Ideal S64x256 .f32) y = (V m c main_v2 : S64x16384.Idx → EReal) k := by
  obtain ⟨-, -, -, -, e0, e1, -⟩ := idx_facts t
  unfold iblk
  rw [View.read_apply]
  show V m c main_v2 _ = V m c main_v2 _
  congr 1
  funext a; apply Fin.ext
  match a with
  | ⟨0, _⟩ => show win0_2.index t (0 : Fin 2) * 64 + 1 * (y 0).val = (k 0).val; rw [e0, h0]; omega
  | ⟨1, _⟩ => show win0_2.index t (1 : Fin 2) * 256 + 1 * (y 1).val = (k 1).val; rw [e1, h1]; omega

/-- Row `r` of point `t`'s block of the tap-first weights is their row `256·t + r`, plane and class unchanged. -/
theorem blk_weights (c : Dev nD) (t : Fin cfg0.N) (y : S3x256x64.Idx) (k : S3x16384x64.Idx)
    (h0 : (k 0).val = (y 0).val) (h1 : (k 1).val = t.val * 256 + (y 1).val) (h2 : (k 2).val = (y 2).val) :
    (iblk m c 3 t : Vec Ideal S3x256x64 .f32) y = (V m c main_v3 : S3x16384x64.Idx → EReal) k := by
  obtain ⟨-, -, -, -, -, -, e0, e1, e2, -⟩ := idx_facts t
  unfold iblk
  rw [View.read_apply]
  show V m c main_v3 _ = V m c main_v3 _
  congr 1
  funext a; apply Fin.ext
  match a with
  | ⟨0, _⟩ => show win0_3.index t (0 : Fin 3) * 3 + 1 * (y 0).val = (k 0).val; rw [e0, h0]; omega
  | ⟨1, _⟩ => show win0_3.index t (1 : Fin 3) * 256 + 1 * (y 1).val = (k 1).val; rw [e1, h1]; omega
  | ⟨2, _⟩ => show win0_3.index t (2 : Fin 3) * 64 + 1 * (y 2).val = (k 2).val; rw [e2, h2]; omega

/-- Row `r` of point `t`'s block of the bias is its row `256·t + r`. -/
theorem blk_bias (c : Dev nD) (t : Fin cfg0.N) (y : S256x64.Idx) (k : S16384x64.Idx)
    (h0 : (k 0).val = t.val * 256 + (y 0).val) (h1 : (k 1).val = (y 1).val) :
    (iblk m c 4 t : Vec Ideal S256x64 .f32) y = (V m c main_arg2 : S16384x64.Idx → EReal) k := by
  obtain ⟨-, -, -, -, -, -, -, -, -, e0, e1, -⟩ := idx_facts t
  unfold iblk
  rw [View.read_apply]
  show V m c main_arg2 _ = V m c main_arg2 _
  congr 1
  funext a; apply Fin.ext
  match a with
  | ⟨0, _⟩ => show win0_4.index t (0 : Fin 2) * 256 + 1 * (y 0).val = (k 0).val; rw [e0, h0]; omega
  | ⟨1, _⟩ => show win0_4.index t (1 : Fin 2) * 64 + 1 * (y 1).val = (k 1).val; rw [e1, h1]; omega

/-! ## What a point writes back, the cover, the array -/

/-- The array the blocks are blocks of: `Gt` of the five arrays as the launch finds them. -/
abbrev whole (c : Dev nD) : S64x16384x64.Idx → EReal :=
  Gt (V m c main_v1) (V m c main_v0) (V m c main_v2) (V m c main_v3) (V m c main_arg2)

/-- Point `t` writes back block `t` of that array. -/
theorem flushed_eq (c : Dev nD) (t : Fin cfg0.N) :
    (dats m 0 c).flushed 5 t = ((cfg0.win 5).blk t).view.read (Elt Ideal) (whole m c) := by
  rw [Cert.KernelIdeal.Value.flushed5]
  obtain ⟨-, -, -, -, -, -, -, -, -, -, -, e0, e1, e2⟩ := idx_facts t
  have hN : t.val < 64 := Nat.lt_of_lt_of_eq t.isLt N_0
  funext j
  have hj0 : (j 0).val < 64 := (j 0).isLt
  have hj1 : (j 1).val < 256 := (j 1).isLt
  have hj2 : (j 2).val < 64 := (j 2).isLt
  show out0_5 (iblk m c 0 t) (iblk m c 1 t) (iblk m c 2 t) (iblk m c 3 t) (iblk m c 4 t) j
      = whole m c (((cfg0.win 5).blk t).view.emb j)
  -- the block's element, then the array's element at the index under it
  refine (block_elem (iblk m c 0 t) (iblk m c 1 t) (iblk m c 2 t) (iblk m c 3 t) (iblk m c 4 t) j
    ⟨(j 0).val, hj0⟩ ⟨(j 1).val, hj1⟩ ⟨(j 2).val, hj2⟩ rfl rfl rfl).trans ?_
  have hn : t.val * 256 + (j 1).val < 16384 := by omega
  refine Eq.trans ?_ (Gt_apply (V m c main_v1) (V m c main_v0) (V m c main_v2) (V m c main_v3) (V m c main_arg2)
    (((cfg0.win 5).blk t).view.emb j) ⟨(j 0).val, hj0⟩ ⟨t.val * 256 + (j 1).val, hn⟩ ⟨(j 2).val, hj2⟩ ?_ ?_ ?_).symm
  · unfold elemT
    rw [blk_left m c t (ix2 ⟨(j 0).val, hj0⟩ ⟨(j 1).val, hj1⟩) (ix2 ⟨(j 0).val, hj0⟩ ⟨t.val * 256 + (j 1).val, hn⟩) rfl rfl,
      blk_centre m c t (ix2 ⟨(j 0).val, hj0⟩ ⟨(j 1).val, hj1⟩) (ix2 ⟨(j 0).val, hj0⟩ ⟨t.val * 256 + (j 1).val, hn⟩) rfl rfl,
      blk_right m c t (ix2 ⟨(j 0).val, hj0⟩ ⟨(j 1).val, hj1⟩) (ix2 ⟨(j 0).val, hj0⟩ ⟨t.val * 256 + (j 1).val, hn⟩) rfl rfl,
      blk_weights m c t (ix3 (0 : Fin 3) ⟨(j 1).val, hj1⟩ ⟨(j 2).val, hj2⟩) (ix3 (0 : Fin 3) ⟨t.val * 256 + (j 1).val, hn⟩ ⟨(j 2).val, hj2⟩) rfl rfl rfl,
      blk_weights m c t (ix3 (1 : Fin 3) ⟨(j 1).val, hj1⟩ ⟨(j 2).val, hj2⟩) (ix3 (1 : Fin 3) ⟨t.val * 256 + (j 1).val, hn⟩ ⟨(j 2).val, hj2⟩) rfl rfl rfl,
      blk_weights m c t (ix3 (2 : Fin 3) ⟨(j 1).val, hj1⟩ ⟨(j 2).val, hj2⟩) (ix3 (2 : Fin 3) ⟨t.val * 256 + (j 1).val, hn⟩ ⟨(j 2).val, hj2⟩) rfl rfl rfl,
      blk_bias m c t (ix2 ⟨(j 1).val, hj1⟩ ⟨(j 2).val, hj2⟩) (ix2 ⟨t.val * 256 + (j 1).val, hn⟩ ⟨(j 2).val, hj2⟩) rfl rfl]
  · show win0_5.index t (0 : Fin 3) * 64 + 1 * (j 0).val = (j 0).val; rw [e0]; omega
  · show win0_5.index t (1 : Fin 3) * 256 + 1 * (j 1).val = t.val * 256 + (j 1).val; rw [e1]; omega
  · show win0_5.index t (2 : Fin 3) * 64 + 1 * (j 2).val = (j 2).val; rw [e2]; omega

/-- An index of the result is in point `t`'s block iff each coordinate is in the block's range on its axis. -/
theorem mem_blk (t : Fin cfg0.N) (i : S64x16384x64.Idx) :
    i ∈ ((cfg0.win 5).blk t).view.set ↔ ∀ a : Fin 3, win0_5.index t a * S64x256x64.size a ≤ (i a).val
      ∧ (i a).val < win0_5.index t a * S64x256x64.size a + S64x256x64.size a := by
  show i ∈ ((View.whole main_v4).slice (win0_5.rect t)).set ↔ _
  rw [View.set_slice_whole, Rect.mem_set_unit]
  exact Iff.rfl

/-- Every index of the result is in the block of the point its cell coordinate names: `n / 256`. -/
theorem cover (i : S64x16384x64.Idx) :
    ∃ t : Fin cfg0.N, (cfg0.win 5).flush t = true ∧ i ∈ ((cfg0.win 5).blk t).view.set := by
  have hi0 : (i 0).val < 64 := (i 0).isLt
  have hi1 : (i 1).val < 16384 := (i 1).isLt
  have hi2 : (i 2).val < 64 := (i 2).isLt
  have hlt : (i 1).val / 256 < cfg0.N := Nat.lt_of_lt_of_eq (by omega : (i 1).val / 256 < 64) N_0.symm
  refine ⟨⟨(i 1).val / 256, hlt⟩, flush0_5 _, ?_⟩
  obtain ⟨-, -, -, -, -, -, -, -, -, -, -, e0, e1, e2⟩ := idx_facts ⟨(i 1).val / 256, hlt⟩
  rw [mem_blk]
  intro a
  match a with
  | ⟨0, _⟩ => show win0_5.index ⟨(i 1).val / 256, hlt⟩ (0 : Fin 3) * 64 ≤ (i 0).val ∧ (i 0).val < win0_5.index ⟨(i 1).val / 256, hlt⟩ (0 : Fin 3) * 64 + 64; rw [e0]; omega
  | ⟨1, _⟩ => show win0_5.index ⟨(i 1).val / 256, hlt⟩ (1 : Fin 3) * 256 ≤ (i 1).val ∧ (i 1).val < win0_5.index ⟨(i 1).val / 256, hlt⟩ (1 : Fin 3) * 256 + 256; rw [e1]; show (i 1).val / 256 * 256 ≤ (i 1).val ∧ (i 1).val < (i 1).val / 256 * 256 + 256; omega
  | ⟨2, _⟩ => show win0_5.index ⟨(i 1).val / 256, hlt⟩ (2 : Fin 3) * 64 ≤ (i 2).val ∧ (i 2).val < win0_5.index ⟨(i 1).val / 256, hlt⟩ (2 : Fin 3) * 64 + 64; rw [e2]; omega

/-- So the result array after the run is `Gt` of the five arrays as the launch finds them. -/
theorem final (c : Dev nD) : (dats m 0 c).arrAt 5 cfg0.N = whole m c :=
  (dats m 0 c).arrAt_eq_of_cover 5 (whole m c) (fun t _ => flushed_eq m c t) cover

end Cert.Neighbor.Kern

end
-- ==== Proof.HostPrefix.lean ====
/-
  The arrays the kernel's launch finds, as functions of the arguments.

  Before the launch the kernel's program drops the input's unit axis, builds its two cyclic shifts (each a join of
  two slices of the squeezed input) and transposes the weights tap-first; the bias goes in as it is. The first
  three are the very operations the reference's program starts with, so those arrays are the reference's own first
  three stages of the same argument, never opened here. The transposed weights at `(k, n, c)` are the weights at
  `(n, c, k)`.
-/
import proofs.«124618_j59519656788346_2_alg».proof.Proof.Gen.KernelIdeal.Frame
import proofs.«124618_j59519656788346_2_alg».proof.Proof.Gen.ReferenceIdeal.Read
import Idealize.ShloMosaic.Lib.Pipeline.Value
import Idealize.ShloMosaic.Lib.StableHlo.Run
import Idealize.ShloMosaic.Lib.ValueIdx

noncomputable section

namespace Cert.Neighbor.Host

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The squeezed input the launch finds is the reference's squeezed input of the same argument. -/
theorem found_centre (c : Dev nD) :
    (V m c main_v0 : S64x16384.Idx → EReal)
      = Cert.ReferenceIdeal.Read.val_main_v0 (F := Ideal) (m ((c : Thread nD τ).loc main_arg0)) := by
  dsimp only [V]
  simp only [hostOps0, hostOps0_1, hostOps0_2, hostOps0_3, List.flatten_cons, List.flatten_nil, List.append_nil,
    List.cons_append, List.nil_append]
  after_results
  rfl

/-- The left-neighbour array the launch finds is the reference's. -/
theorem found_left (c : Dev nD) :
    (V m c main_v1 : S64x16384.Idx → EReal)
      = Cert.ReferenceIdeal.Read.val_main_v1 (F := Ideal) (m ((c : Thread nD τ).loc main_arg0)) := by
  dsimp only [V]
  simp only [hostOps0, hostOps0_1, hostOps0_2, hostOps0_3, List.flatten_cons, List.flatten_nil, List.append_nil,
    List.cons_append, List.nil_append]
  after_results
  rfl

/-- The right-neighbour array the launch finds is the reference's. -/
theorem found_right (c : Dev nD) :
    (V m c main_v2 : S64x16384.Idx → EReal)
      = Cert.ReferenceIdeal.Read.val_main_v2 (F := Ideal) (m ((c : Thread nD τ).loc main_arg0)) := by
  dsimp only [V]
  simp only [hostOps0, hostOps0_1, hostOps0_2, hostOps0_3, List.flatten_cons, List.flatten_nil, List.append_nil,
    List.cons_append, List.nil_append]
  after_results
  rfl

/-- The weights the launch finds are the argument transposed tap-first … -/
theorem found_weights (c : Dev nD) :
    (V m c main_v3 : S3x16384x64.Idx → EReal)
      = transpose S3x16384x64 [2, 0, 1] (m ((c : Thread nD τ).loc main_arg1)) transposes_S16384x64x3_S3x16384x64_2_0_1 := by
  dsimp only [V]
  simp only [hostOps0, hostOps0_1, hostOps0_2, hostOps0_3, List.flatten_cons, List.flatten_nil, List.append_nil,
    List.cons_append, List.nil_append]
  after_results

/-- … so at `(k, n, c)` they are the argument at `(n, c, k)`. -/
theorem found_weights_apply (c : Dev nD) (k : Fin 3) (n : Fin 16384) (cc : Fin 64) :
    (V m c main_v3 : S3x16384x64.Idx → EReal) (ix3 k n cc)
      = (m ((c : Thread nD τ).loc main_arg1) : S16384x64x3.Idx → EReal) (ix3 n cc k) := by
  rw [found_weights]
  exact transpose_apply _ _ transposes_S16384x64x3_S3x16384x64_2_0_1 (ix3 k n cc) (ix3 n cc k)
    (fun b => match b with | ⟨0, _⟩ => rfl | ⟨1, _⟩ => rfl | ⟨2, _⟩ => rfl)

end Cert.Neighbor.Host

end
-- ==== Proof.KernelRun.lean ====
/-
  The kernel's run, read: its result array is `G` of the reference's own shifted inputs, the weights and the bias.

  The blocks give the result as `Gt` of the five arrays the launch finds; three of those are the reference's first
  stages of the input, the fourth is the weights transposed tap-first — which turns `Gt` into `G` — and the fifth is
  the bias itself.
-/
import proofs.«124618_j59519656788346_2_alg».proof.Proof.KernelBlocks
import proofs.«124618_j59519656788346_2_alg».proof.Proof.HostPrefix

noncomputable section

namespace Cert.Neighbor.Kern

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The result as a function of the three arguments. -/
abbrev result (c : Dev nD) : S64x16384x64.Idx → EReal :=
  G (Cert.ReferenceIdeal.Read.val_main_v1 (F := Ideal) (m ((c : Thread nD τ).loc main_arg0)))
    (Cert.ReferenceIdeal.Read.val_main_v0 (F := Ideal) (m ((c : Thread nD τ).loc main_arg0)))
    (Cert.ReferenceIdeal.Read.val_main_v2 (F := Ideal) (m ((c : Thread nD τ).loc main_arg0)))
    (m ((c : Thread nD τ).loc main_arg1)) (m ((c : Thread nD τ).loc main_arg2))

/-- The array of blocks is that function. -/
theorem whole_eq (c : Dev nD) : whole m c = result m c := by
  unfold whole result
  rw [Host.found_left m c, Host.found_centre m c, Host.found_right m c, V_main_arg2 m c]
  exact Gt_eq_G _ _ _ _ _ _ (Host.found_weights_apply m c)

/-- Every weakly fair execution of the kernel's program ends with the result array at `result`, the arguments kept. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (whole_eq m c)), (h c).2⟩)
    (Cert.KernelIdeal.Value.run_blocks m ρ)

end Cert.Neighbor.Kern

end
-- ==== Proof.lean ====
/-
  The certificate: the kernel and its reference compute one function on the extended reals.

  Both programs produce, at batch row `b`, cell `n`, class `c`,
      1.7159 · tanh ((xl[b,n] · W[n,c,0] + x[b,n] · W[n,c,1] + xr[b,n] · W[n,c,2] + bias[n,c]) · (2/3)),
  `x` the input without its unit axis and `xl`, `xr` its cyclic shifts along the cells (Proof/Spec.lean: `G`). The
  reference builds the arrays whole and is read at an index (Proof/RefRead.lean); the kernel builds the same three
  input arrays by the same operations, transposes the weights tap-first (Proof/HostPrefix.lean), and computes the
  result 256 cells at a time, the 64 blocks tiling the result (Proof/KernelBlocks.lean, Proof/KernelRun.lean). The
  two carry the same two literal words and associate the sum the same way, so no law of the extended reals is
  needed and the precondition (finite inputs) is never opened. The idealized kernel is the kernel's own text read
  on the extended reals, no operation rewritten, so `preserves` has nothing to state. The two kernel frames are the generated ones; the reference's frame is its
  generated run with the result dropped.
-/
import proofs.«124618_j59519656788346_2_alg».proof.Defs
import proofs.«124618_j59519656788346_2_alg».proof.Proof.Gen.Kernel
import proofs.«124618_j59519656788346_2_alg».proof.Proof.Gen.Kernel.Skeleton
import proofs.«124618_j59519656788346_2_alg».proof.Proof.Gen.Kernel.Launch
import proofs.«124618_j59519656788346_2_alg».proof.Proof.Gen.Kernel.Points
import proofs.«124618_j59519656788346_2_alg».proof.Proof.Gen.Kernel.Frame
import proofs.«124618_j59519656788346_2_alg».proof.Proof.Gen.KernelIdeal
import proofs.«124618_j59519656788346_2_alg».proof.Proof.Gen.KernelIdeal.Skeleton
import proofs.«124618_j59519656788346_2_alg».proof.Proof.Gen.KernelIdeal.Launch
import proofs.«124618_j59519656788346_2_alg».proof.Proof.Gen.KernelIdeal.Points
import proofs.«124618_j59519656788346_2_alg».proof.Proof.Gen.KernelIdeal.Frame
import proofs.«124618_j59519656788346_2_alg».proof.Proof.Gen.ReferenceIdeal
import proofs.«124618_j59519656788346_2_alg».proof.Proof.Gen.KernelIdeal.Value
import proofs.«124618_j59519656788346_2_alg».proof.Proof.Gen.ReferenceIdeal.Run
import proofs.«124618_j59519656788346_2_alg».proof.Proof.Gen.ReferenceIdeal.Read
import proofs.«124618_j59519656788346_2_alg».proof.Proof.Gen.Pre_finite_inputs
import proofs.«124618_j59519656788346_2_alg».proof.Proof.Spec
import proofs.«124618_j59519656788346_2_alg».proof.Proof.RefRead
import proofs.«124618_j59519656788346_2_alg».proof.Proof.KernelRun
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and keeps its arguments: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the three arguments both programs end with the result array at `G` of the shifted
    inputs, the weights and the bias. -/
theorem algebraic : Cert.algebraic_KernelIdeal_ReferenceIdeal := by
  intro m ρ m' ρ' _ hagree
  refine ⟨fun c => Cert.Neighbor.Kern.result m c, Cert.Neighbor.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.Neighbor.Ref.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
